-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel

variable [Facts]

def fn {F : FTy → Type} [FloatOps F] (main_arg0 : FVec F S16x256x128x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  main_v3
-- ==== Kernel.lean ====
abbrev S16x256x128x128 : Shape := ⟨4, ![16, 256, 128, 128]⟩
abbrev S4096x128x128 : Shape := ⟨3, ![4096, 128, 128]⟩
abbrev S32x128x128 : Shape := ⟨3, ![32, 128, 128]⟩

abbrev nBuf : Space → Nat
  | .hbm => 4
  | .vmem => 4
  | .smem => 0
  | _ => 0

abbrev bufTy : (tb : Table) → Fin (tcTables nBuf tb) → BufTy
  | .hbm, ⟨0, _⟩ => ⟨S16x256x128x128, .f32⟩
  | .hbm, ⟨1, _⟩ => ⟨S4096x128x128, .f32⟩
  | .hbm, ⟨2, _⟩ => ⟨S4096x128x128, .f32⟩
  | .hbm, ⟨3, _⟩ => ⟨S16x256x128x128, .f32⟩
  | .local _ .vmem, ⟨0, _⟩ => ⟨S32x128x128, .f32⟩
  | .local _ .vmem, ⟨1, _⟩ => ⟨S32x128x128, .f32⟩
  | .local _ .vmem, ⟨2, _⟩ => ⟨S32x128x128, .f32⟩
  | .local _ .vmem, ⟨3, _⟩ => ⟨S32x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x256x128x128_S4096x128x128 : S16x256x128x128.ShapeCasts S4096x128x128
  inb_S32x128x128_S32x128x128_0_0_0 : ∀ a, (![0, 0, 0] : Fin 3 → Nat) a + S32x128x128.size a ≤ S32x128x128.size a
  h_S32x128x128 : 0 < S32x128x128.numel
  shapeCasts_S32x128x128_S32x128x128 : S32x128x128.ShapeCasts S32x128x128
  rotates_S32x128x128_d1 : S32x128x128.Rotates 1 none
  iota_S32x128x128_d1_w32 : S32x128x128.Iotas .tc 32 [1]
  rotates_S32x128x128_d2 : S32x128x128.Rotates 2 none
  iota_S32x128x128_d2_w32 : S32x128x128.Iotas .tc 32 [2]
  shapeCasts_S4096x128x128_S16x256x128x128 : S4096x128x128.ShapeCasts S16x256x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x128.size a ≤ S4096x128x128.size a
  hwx0_0 : ∀ i : grid0.Coords, EltTy.bits .f32 = 32 ∨ (Rect.block (s := S4096x128x128) S32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S4096x128x128.size a
  hwx0_1 : ∀ i : grid0.Coords, EltTy.bits .f32 = 32 ∨ (Rect.block (s := S4096x128x128) S32x128x128.size (cc0_transform_1 i) (hinb0_1 i)).WholeWords (EltTy.packing .f32)

variable [Facts₀]

abbrev win0_0 : Pipeline.Window sig grid0 :=
  Pipeline.Window.ofSpec (Memref.whole main_v0) S32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S_, .f32⟩
  | .hbm, ⟨2, _⟩ => ⟨S_, .f32⟩
  | .hbm, ⟨3, _⟩ => ⟨S16x256x128x128, .f32⟩
  | .hbm, ⟨4, _⟩ => ⟨S_, .f32⟩
  | .hbm, ⟨5, _⟩ => ⟨S_, .f32⟩
  | .hbm, ⟨6, _⟩ => ⟨S16x256x128x128, .f32⟩
  | .hbm, ⟨7, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_call1_cst : Ref sig .tc := ⟨.hbm, 4, rfl⟩
abbrev main_call1_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x256x128x128_S16x256x128x128_w1s1p0_0_w1s1p0_0_w128s1p127_0_w1s1p0_0 : S16x256x128x128.ReduceWindows (![1, 1, 128, 1] : Fin 4 → Nat) ![1, 1, 1, 1] ![0, 0, 127, 0] ![0, 0, 0, 0] S16x256x128x128
  h_S_ : 0 < S_.numel
  reduceWindows_S16x256x128x128_S16x256x128x128_w1s1p0_0_w1s1p0_0_w1s1p0_0_w128s1p127_0 : S16x256x128x128.ReduceWindows (![1, 1, 1, 128] : Fin 4 → Nat) ![1, 1, 1, 1] ![0, 0, 0, 127] ![0, 0, 0, 0] S16x256x128x128

variable [Facts₀]

class Facts : Prop extends Facts₀ where

variable [Facts]
-- ==== Proof.PrefixMax.lean ====
/-
  Running maxima of a sequence of extended reals.

  For a sequence `f : ℕ → EReal`, `winMax w f i` is the largest of the (at most) `w` terms ending at position `i`,
  and `preMax f i` the largest of `f 0, …, f i`.  Two facts are proved:

  * DOUBLING.  Taking, at every position `i ≥ w`, the larger of the width-`w` maximum at `i` and the width-`w` maximum
    at `i - w` (and leaving the positions `i < w` alone) gives the width-`2w` maxima: the two windows
    `(i - w, i]` and `(i - 2w, i - w]` are adjacent, and below `w` a window already reaches back to position `0`.
    Starting from width `1` (the sequence itself), seven doublings reach width `128`, which on positions below `128`
    is the running maximum.
  * A PADDED WINDOW.  Folding `max` from `-∞` over the `128` positions `i - 127, …, i`, a position before the start
    of the sequence contributing `-∞`, is again the running maximum `preMax f i`.

  Only the order of the extended reals is used (`max` is the least upper bound; `-∞` is the least element): every
  equation is proved by showing both sides have the same upper bounds.
-/
import Idealize.ShloMosaic.PureOps.Ideal

namespace Cert.PrefixMax

/-- The largest of the terms of `f` at the positions `j` with `i + 1 - w ≤ j ≤ i`: a window of width `w` ending at
    `i`, cut off at position `0`. -/
noncomputable def winMax (w : ℕ) (f : ℕ → EReal) (i : ℕ) : EReal := (Finset.Icc (i + 1 - w) i).sup f

/-- The running maximum: the largest of `f 0, …, f i`. -/
noncomputable def preMax (f : ℕ → EReal) (i : ℕ) : EReal := (Finset.range (i + 1)).sup f

/-- The upper bounds of a window's maximum are the common upper bounds of its terms. -/
theorem winMax_le_iff (w : ℕ) (f : ℕ → EReal) (i : ℕ) (c : EReal) :
    winMax w f i ≤ c ↔ ∀ j, i + 1 - w ≤ j → j ≤ i → f j ≤ c := by
  unfold winMax
  rw [Finset.sup_le_iff]
  constructor
  · intro h j h1 h2; exact h j (Finset.mem_Icc.2 ⟨h1, h2⟩)
  · intro h j hj; exact h j (Finset.mem_Icc.1 hj).1 (Finset.mem_Icc.1 hj).2

/-- The upper bounds of the running maximum at `i` are the common upper bounds of `f 0, …, f i`. -/
theorem preMax_le_iff (f : ℕ → EReal) (i : ℕ) (c : EReal) : preMax f i ≤ c ↔ ∀ j, j ≤ i → f j ≤ c := by
  unfold preMax
  rw [Finset.sup_le_iff]
  constructor
  · intro h j hj; exact h j (Finset.mem_range.2 (by omega))
  · intro h j hj; exact h j (by have := Finset.mem_range.1 hj; omega)

/-- A window of width one holds one term. -/
theorem winMax_one (f : ℕ → EReal) (i : ℕ) : winMax 1 f i = f i := by
  apply eq_of_forall_ge_iff; intro c
  rw [winMax_le_iff]
  constructor
  · intro h; exact h i (by omega) le_rfl
  · intro h j h1 h2
    have e : j = i := by omega
    rw [e]; exact h

/-- A window at least as wide as the position is far from the start holds everything up to the position. -/
theorem winMax_eq_preMax {w i : ℕ} (h : i < w) (f : ℕ → EReal) : winMax w f i = preMax f i := by
  apply eq_of_forall_ge_iff; intro c
  rw [winMax_le_iff, preMax_le_iff]
  constructor
  · intro hh j hj; exact hh j (by omega) hj
  · intro hh j _ hj; exact hh j hj

/-- One step of the log-step scan with shift `s`: a position at or past `s` takes the larger of its value and the value
    `s` places before it; an earlier position keeps its value. -/
noncomputable def scanStep (s : ℕ) (a : ℕ → EReal) (i : ℕ) : EReal := if s ≤ i then max (a i) (a (i - s)) else a i

/-- DOUBLING: a step with shift `w` turns the width-`w` maxima into the width-`2w` maxima. -/
theorem scanStep_winMax {w : ℕ} (hw : 0 < w) (f : ℕ → EReal) (i : ℕ) :
    scanStep w (winMax w f) i = winMax (2 * w) f i := by
  unfold scanStep
  by_cases h : w ≤ i
  · rw [if_pos h]
    apply eq_of_forall_ge_iff; intro c
    rw [max_le_iff, winMax_le_iff, winMax_le_iff, winMax_le_iff]
    constructor
    · rintro ⟨h1, h2⟩ j hj1 hj2
      by_cases hj : i + 1 - w ≤ j
      · exact h1 j hj hj2
      · exact h2 j (by omega) (by omega)
    · intro h3
      exact ⟨fun j a b => h3 j (by omega) b, fun j a b => h3 j (by omega) (by omega)⟩
  · rw [if_neg h]
    apply eq_of_forall_ge_iff; intro c
    rw [winMax_le_iff, winMax_le_iff]
    constructor
    · intro hh j _ hj; exact hh j (by omega) hj
    · intro hh j _ hj; exact hh j (by omega) hj

/-- The upper bounds of a left fold of `max` are the common upper bounds of its start and of the folded terms. -/
theorem foldl_max_le_iff {β : Type} (g : β → EReal) (l : List β) (v c : EReal) :
    l.foldl (fun r n => max r (g n)) v ≤ c ↔ v ≤ c ∧ ∀ n ∈ l, g n ≤ c := by
  induction l generalizing v with
  | nil => simp
  | cons a l ih =>
    rw [List.foldl_cons, ih, max_le_iff]
    constructor
    · rintro ⟨⟨h1, h2⟩, h3⟩
      exact ⟨h1, fun n hn => by
        rcases List.mem_cons.1 hn with rfl | hn
        · exact h2
        · exact h3 n hn⟩
    · rintro ⟨h1, h2⟩
      exact ⟨⟨h1, h2 a (List.mem_cons_self ..)⟩, fun n hn => h2 n (List.mem_cons_of_mem _ hn)⟩

/-- A PADDED WINDOW: the fold of `max` from `-∞` over the window positions `n = 0, …, 127`, position `n` standing for the
    term `i + n - 127` of the sequence when that is not before its start and for `-∞` otherwise, is the running
    maximum at `i`. -/
theorem paddedWindow_eq_preMax (f : ℕ → EReal) {i : ℕ} (hi : i < 128) :
    (List.finRange 128).foldl (fun r n => max r (if 127 ≤ i + n.val then f (i + n.val - 127) else ⊥)) ⊥ = preMax f i := by
  apply eq_of_forall_ge_iff; intro c
  rw [foldl_max_le_iff, preMax_le_iff]
  constructor
  · rintro ⟨-, h⟩ j hj
    have h1 := h ⟨j + 127 - i, by omega⟩ (List.mem_finRange _)
    rw [if_pos (by show 127 ≤ i + (j + 127 - i); omega)] at h1
    have e : i + (j + 127 - i) - 127 = j := by omega
    rw [show i + (⟨j + 127 - i, by omega⟩ : Fin 128).val - 127 = j from e] at h1
    exact h1
  · intro h
    refine ⟨bot_le, fun n _ => ?_⟩
    by_cases hn : 127 ≤ i + n.val
    · rw [if_pos hn]; exact h _ (by have := n.isLt; omega)
    · rw [if_neg hn]; exact bot_le

/-- A finite sequence continued by `-∞`: the form in which a row of an array is handed to the lemmas above. -/
noncomputable def seqOf {n : ℕ} (g : Fin n → EReal) (k : ℕ) : EReal := if h : k < n then g ⟨k, h⟩ else ⊥

/-- At a position of the finite sequence the continuation is the sequence. -/
theorem seqOf_val {n : ℕ} (g : Fin n → EReal) (q : Fin n) : seqOf g q.val = g q := by
  unfold seqOf; rw [dif_pos q.isLt]

theorem seqOf_of_lt {n : ℕ} (g : Fin n → EReal) {k : ℕ} (h : k < n) : seqOf g k = g ⟨k, h⟩ := by
  unfold seqOf; rw [dif_pos h]

end Cert.PrefixMax
-- ==== Proof.BodyScan.lean ====
/-
  What the kernel body computes on one block, element by element, at the ideal instance.

  The body works on a block of shape [32, 128, 128] (32 images of 128 rows × 128 columns).  It applies seven times,
  with shifts 1, 2, 4, …, 64, the step "where the row number is at least the shift, take the larger of the entry and
  the entry `shift` rows above; elsewhere keep the entry" — the rotation that fetches the entry above wraps around, and
  the comparison with the row number masks exactly the wrapped rows — then the same seven steps along the columns,
  and finally adds the result to itself.

  A step with shift `w` doubles the width of the running window (the doubling law of `PrefixMax`), so after the seven
  row steps entry (p, q, r) is the largest of rows 0 … q of column r of image p, after the seven column steps it is the
  largest of those row-maxima over columns 0 … r, and the stored value is twice that.
-/
import proofs.«102322_j66623532695950_2_alg».proof.Proof.Gen.KernelIdeal.Skeleton
import proofs.«102322_j66623532695950_2_alg».proof.Proof.PrefixMax
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen Cert.PrefixMax

/-- One printed step along the rows (axis 1) with shift `s`. -/
def stepRow (s : BitVec 32) (v : FVec Ideal S32x128x128 .f32) : FVec Ideal S32x128x128 .f32 :=
  select (cmpi .sge (iota .tc S32x128x128 32 [1] iota_S32x128x128_d1_w32) (broadcast S32x128x128 s))
    (maximumf v (dynamicRotate 1 s none v rotates_S32x128x128_d1)) v

/-- One printed step along the columns (axis 2) with shift `s`. -/
def stepCol (s : BitVec 32) (v : FVec Ideal S32x128x128 .f32) : FVec Ideal S32x128x128 .f32 :=
  select (cmpi .sge (iota .tc S32x128x128 32 [2] iota_S32x128x128_d2_w32) (broadcast S32x128x128 s))
    (maximumf v (dynamicRotate 2 s none v rotates_S32x128x128_d2)) v

/-- The seven row steps. -/
def rows (v : FVec Ideal S32x128x128 .f32) : FVec Ideal S32x128x128 .f32 :=
  stepRow 64#32 (stepRow 32#32 (stepRow 16#32 (stepRow 8#32 (stepRow 4#32 (stepRow 2#32 (stepRow 1#32 v))))))

/-- The seven column steps. -/
def cols (v : FVec Ideal S32x128x128 .f32) : FVec Ideal S32x128x128 .f32 :=
  stepCol 64#32 (stepCol 32#32 (stepCol 16#32 (stepCol 8#32 (stepCol 4#32 (stepCol 2#32 (stepCol 1#32 v))))))

/-- The body's stored value is the fourteen steps on the loaded block, doubled. -/
theorem payload_eq (v0 : Vec Ideal S32x128x128 .f32) :
    k0_pay4 (k0_pay1 v0) (k0_pay2 v0) k0_pay3
      = addf (cols (rows (shapeCast S32x128x128 v0 shapeCasts_S32x128x128_S32x128x128)))
          (cols (rows (shapeCast S32x128x128 v0 shapeCasts_S32x128x128_S32x128x128))) := rfl

/-- The row number compared with each of the seven shifts. -/
theorem sge_shift : ∀ q : Fin 128,
    IntOp.cmpi .sge (BitVec.ofNat 32 q.val) 1#32 = (if 1 ≤ q.val then 1#1 else 0#1)
    ∧ IntOp.cmpi .sge (BitVec.ofNat 32 q.val) 2#32 = (if 2 ≤ q.val then 1#1 else 0#1)
    ∧ IntOp.cmpi .sge (BitVec.ofNat 32 q.val) 4#32 = (if 4 ≤ q.val then 1#1 else 0#1)
    ∧ IntOp.cmpi .sge (BitVec.ofNat 32 q.val) 8#32 = (if 8 ≤ q.val then 1#1 else 0#1)
    ∧ IntOp.cmpi .sge (BitVec.ofNat 32 q.val) 16#32 = (if 16 ≤ q.val then 1#1 else 0#1)
    ∧ IntOp.cmpi .sge (BitVec.ofNat 32 q.val) 32#32 = (if 32 ≤ q.val then 1#1 else 0#1)
    ∧ IntOp.cmpi .sge (BitVec.ofNat 32 q.val) 64#32 = (if 64 ≤ q.val then 1#1 else 0#1) := by
  decide +kernel

/-- A row step at entry (p, q, r): the mask bit is the comparison of `q` with the shift, and the rotated operand is
    the entry `shift` rows above, counted cyclically. -/
theorem stepRow_apply (s : BitVec 32) (v : FVec Ideal S32x128x128 .f32) (p : Fin 32) (q r : Fin 128) :
    stepRow s v (ix3 p q r)
      = Scalar.select (IntOp.cmpi .sge (BitVec.ofNat 32 q.val) s)
          (max (v (ix3 p q r)) (v (ix3 p ⟨(q.val + 128 - s.toNat % 128) % 128, Nat.mod_lt _ (by decide)⟩ r)))
          (v (ix3 p q r)) := by
  unfold stepRow
  rw [select_apply, maximumf_apply]
  have e1 : cmpi .sge (iota .tc S32x128x128 32 [1] iota_S32x128x128_d1_w32) (broadcast S32x128x128 s) (ix3 p q r)
      = IntOp.cmpi .sge (BitVec.ofNat 32 q.val) s := by
    show IntOp.cmpi .sge (iota .tc S32x128x128 32 [1] iota_S32x128x128_d1_w32 (ix3 p q r)) s = _
    rw [iota_single_apply]
  have e2 : dynamicRotate 1 s none v rotates_S32x128x128_d1 (ix3 p q r)
      = v (ix3 p ⟨(q.val + 128 - s.toNat % 128) % 128, Nat.mod_lt _ (by decide)⟩ r) := by
    unfold dynamicRotate
    refine congrArg v ?_
    funext b
    match b with
    | ⟨0, _⟩ => rfl
    | ⟨1, _⟩ => rfl
    | ⟨2, _⟩ => rfl
  rw [e1, e2]

/-- A column step at entry (p, q, r), likewise. -/
theorem stepCol_apply (s : BitVec 32) (v : FVec Ideal S32x128x128 .f32) (p : Fin 32) (q r : Fin 128) :
    stepCol s v (ix3 p q r)
      = Scalar.select (IntOp.cmpi .sge (BitVec.ofNat 32 r.val) s)
          (max (v (ix3 p q r)) (v (ix3 p q ⟨(r.val + 128 - s.toNat % 128) % 128, Nat.mod_lt _ (by decide)⟩)))
          (v (ix3 p q r)) := by
  unfold stepCol
  rw [select_apply, maximumf_apply]
  have e1 : cmpi .sge (iota .tc S32x128x128 32 [2] iota_S32x128x128_d2_w32) (broadcast S32x128x128 s) (ix3 p q r)
      = IntOp.cmpi .sge (BitVec.ofNat 32 r.val) s := by
    show IntOp.cmpi .sge (iota .tc S32x128x128 32 [2] iota_S32x128x128_d2_w32 (ix3 p q r)) s = _
    rw [iota_single_apply]
  have e2 : dynamicRotate 2 s none v rotates_S32x128x128_d2 (ix3 p q r)
      = v (ix3 p q ⟨(r.val + 128 - s.toNat % 128) % 128, Nat.mod_lt _ (by decide)⟩) := by
    unfold dynamicRotate
    refine congrArg v ?_
    funext b
    match b with
    | ⟨0, _⟩ => rfl
    | ⟨1, _⟩ => rfl
    | ⟨2, _⟩ => rfl
  rw [e1, e2]

/-- DOUBLING along the rows: if every entry of `v` is the width-`w` window maximum of its column of `x`, a row step
    with shift `w` makes every entry the width-`2w` window maximum. -/
theorem stepRow_winMax {w : ℕ} (s : BitVec 32) (hs : s.toNat = w) (hw : 0 < w) (hw' : w < 128)
    (hc : ∀ q : Fin 128, IntOp.cmpi .sge (BitVec.ofNat 32 q.val) s = (if w ≤ q.val then 1#1 else 0#1))
    (x v : FVec Ideal S32x128x128 .f32)
    (hv : ∀ (p : Fin 32) (q r : Fin 128), v (ix3 p q r) = winMax w (seqOf fun h' => x (ix3 p h' r)) q.val)
    (p : Fin 32) (q r : Fin 128) :
    stepRow s v (ix3 p q r) = winMax (2 * w) (seqOf fun h' => x (ix3 p h' r)) q.val := by
  rw [stepRow_apply, hc q, ← scanStep_winMax hw]
  unfold scanStep
  have hq := q.isLt
  by_cases h : w ≤ q.val
  · rw [if_pos h, if_pos h, select_one, hv, hv]
    have e : (q.val + 128 - s.toNat % 128) % 128 = q.val - w := by rw [hs]; omega
    simp only [e]
  · rw [if_neg h, if_neg h, select_zero, hv]

/-- DOUBLING along the columns. -/
theorem stepCol_winMax {w : ℕ} (s : BitVec 32) (hs : s.toNat = w) (hw : 0 < w) (hw' : w < 128)
    (hc : ∀ q : Fin 128, IntOp.cmpi .sge (BitVec.ofNat 32 q.val) s = (if w ≤ q.val then 1#1 else 0#1))
    (x v : FVec Ideal S32x128x128 .f32)
    (hv : ∀ (p : Fin 32) (q r : Fin 128), v (ix3 p q r) = winMax w (seqOf fun w' => x (ix3 p q w')) r.val)
    (p : Fin 32) (q r : Fin 128) :
    stepCol s v (ix3 p q r) = winMax (2 * w) (seqOf fun w' => x (ix3 p q w')) r.val := by
  rw [stepCol_apply, hc r, ← scanStep_winMax hw]
  unfold scanStep
  have hr := r.isLt
  by_cases h : w ≤ r.val
  · rw [if_pos h, if_pos h, select_one, hv, hv]
    have e : (r.val + 128 - s.toNat % 128) % 128 = r.val - w := by rw [hs]; omega
    simp only [e]
  · rw [if_neg h, if_neg h, select_zero, hv]

/-- After the seven row steps every entry is the running maximum down its column. -/
theorem rows_apply (x : FVec Ideal S32x128x128 .f32) (p : Fin 32) (q r : Fin 128) :
    rows x (ix3 p q r) = preMax (seqOf fun h' => x (ix3 p h' r)) q.val := by
  have c := sge_shift
  have r0 : ∀ (p : Fin 32) (q r : Fin 128), x (ix3 p q r) = winMax 1 (seqOf fun h' => x (ix3 p h' r)) q.val :=
    fun p q r => by rw [winMax_one, seqOf_val]
  have r1 := stepRow_winMax (w := 1) 1#32 rfl (by decide) (by decide) (fun q => (c q).1) x x r0
  have r2 := stepRow_winMax (w := 2) 2#32 rfl (by decide) (by decide) (fun q => (c q).2.1) x _ r1
  have r3 := stepRow_winMax (w := 4) 4#32 rfl (by decide) (by decide) (fun q => (c q).2.2.1) x _ r2
  have r4 := stepRow_winMax (w := 8) 8#32 rfl (by decide) (by decide) (fun q => (c q).2.2.2.1) x _ r3
  have r5 := stepRow_winMax (w := 16) 16#32 rfl (by decide) (by decide) (fun q => (c q).2.2.2.2.1) x _ r4
  have r6 := stepRow_winMax (w := 32) 32#32 rfl (by decide) (by decide) (fun q => (c q).2.2.2.2.2.1) x _ r5
  have r7 := stepRow_winMax (w := 64) 64#32 rfl (by decide) (by decide) (fun q => (c q).2.2.2.2.2.2) x _ r6
  exact (r7 p q r).trans (winMax_eq_preMax (by have := q.isLt; omega) _)

/-- After the seven column steps every entry is the running maximum along its row. -/
theorem cols_apply (x : FVec Ideal S32x128x128 .f32) (p : Fin 32) (q r : Fin 128) :
    cols x (ix3 p q r) = preMax (seqOf fun w' => x (ix3 p q w')) r.val := by
  have c := sge_shift
  have r0 : ∀ (p : Fin 32) (q r : Fin 128), x (ix3 p q r) = winMax 1 (seqOf fun w' => x (ix3 p q w')) r.val :=
    fun p q r => by rw [winMax_one, seqOf_val]
  have r1 := stepCol_winMax (w := 1) 1#32 rfl (by decide) (by decide) (fun q => (c q).1) x x r0
  have r2 := stepCol_winMax (w := 2) 2#32 rfl (by decide) (by decide) (fun q => (c q).2.1) x _ r1
  have r3 := stepCol_winMax (w := 4) 4#32 rfl (by decide) (by decide) (fun q => (c q).2.2.1) x _ r2
  have r4 := stepCol_winMax (w := 8) 8#32 rfl (by decide) (by decide) (fun q => (c q).2.2.2.1) x _ r3
  have r5 := stepCol_winMax (w := 16) 16#32 rfl (by decide) (by decide) (fun q => (c q).2.2.2.2.1) x _ r4
  have r6 := stepCol_winMax (w := 32) 32#32 rfl (by decide) (by decide) (fun q => (c q).2.2.2.2.2.1) x _ r5
  have r7 := stepCol_winMax (w := 64) 64#32 rfl (by decide) (by decide) (fun q => (c q).2.2.2.2.2.2) x _ r6
  exact (r7 p q r).trans (winMax_eq_preMax (by have := r.isLt; omega) _)

/-- The doubled two-axis running maximum of an array of 128 × 128 images, at image `p`, row `q`, column `r`: the
    largest entry of the image in rows 0 … q and columns 0 … r, added to itself. -/
def cornerMax {n : ℕ} (x : (⟨3, ![n, 128, 128]⟩ : Shape).Idx → EReal) (p : Fin n) (q r : Fin 128) : EReal :=
  preMax (seqOf fun w' => preMax (seqOf fun h' => x (ix3 p h' w')) q.val) r.val
    + preMax (seqOf fun w' => preMax (seqOf fun h' => x (ix3 p h' w')) q.val) r.val

/-- `cornerMax` depends only on the image read and on the row and column numbers: two arrays that agree on one
    image each, read at equal row and column numbers, give the same value. -/
theorem cornerMax_congr {n n' : ℕ} (x : (⟨3, ![n, 128, 128]⟩ : Shape).Idx → EReal)
    (x' : (⟨3, ![n', 128, 128]⟩ : Shape).Idx → EReal) (p : Fin n) (p' : Fin n') (q q' r r' : Fin 128)
    (hq : q.val = q'.val) (hr : r.val = r'.val) (hx : ∀ h' w' : Fin 128, x (ix3 p h' w') = x' (ix3 p' h' w')) :
    cornerMax x p q r = cornerMax x' p' q' r' := by
  unfold cornerMax
  rw [hq, hr]
  simp only [hx]

/-- THE BODY AT AN ENTRY: what the body stores at (p, q, r) is `cornerMax` of the loaded block there. -/
theorem payload_apply (v0 : Vec Ideal S32x128x128 .f32) (p : Fin 32) (q r : Fin 128) :
    k0_pay4 (k0_pay1 v0) (k0_pay2 v0) k0_pay3 (ix3 p q r) = cornerMax (n := 32) v0 p q r := by
  rw [payload_eq, shapeCast_self]
  show cols (rows v0) (ix3 p q r) + cols (rows v0) (ix3 p q r) = _
  rw [cols_apply]
  unfold cornerMax
  have e : (fun w' : Fin 128 => rows v0 (ix3 p q w')) = fun w' => preMax (seqOf fun h' => v0 (ix3 p h' w')) q.val :=
    funext fun w' => rows_apply v0 p q w'
  rw [e]

end Cert.KernelIdeal.Body

end
-- ==== Proof.KernelValue.lean ====
/-
  What the idealized kernel program leaves in its result, as one function of its argument.

  The program views the argument [16, 256, 128, 128] as 4096 images [4096, 128, 128], runs the body on 128 blocks of 32
  images each (grid point `t` reads and writes images 32 t … 32 t + 31), and views the result back as
  [16, 256, 128, 128].  The body treats every image on its own (`BodyScan`: entry (q, r) of an image becomes twice the
  largest entry of its rows 0 … q and columns 0 … r), so block `t` of the written array is the restriction of ONE
  function `imagesMax` of the whole array read; the 128 blocks cover all 4096 images; and the two changes of view
  only renumber the images (image 256 b + c is the pair (b, c)).
-/
import proofs.«102322_j66623532695950_2_alg».proof.Proof.Gen.KernelIdeal.Frame
import proofs.«102322_j66623532695950_2_alg».proof.Proof.BodyScan
import Idealize.ShloMosaic.Lib.ValueIdx
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body Cert.PrefixMax
open Idealize.ShloMosaic.Pipeline (Dat)

variable (m : (ℓ : Loc nD τ sig) → Buf (Elt Ideal) ℓ) (ρ : Dev nD → PrngReg)

/-- The array of 4096 images after the region, as a function of the array before it: image by image, entry (q, r) is
    twice the largest entry of rows 0 … q and columns 0 … r. -/
def imagesMax (X : S4096x128x128.Idx → Elt Ideal .f32) : S4096x128x128.Idx → Elt Ideal .f32 :=
  fun k => cornerMax (n := 4096) X (k 0) (k 1) (k 2)

theorem offsets_zero : (![0, 0, 0] : Fin 3 → Nat) = fun _ => 0 := funext fun a => by fin_cases a <;> rfl

/-- The two windows' block numbers at grid point `t`: both are (t, 0, 0). -/
theorem block_numbers : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Entry (p, h', w') of the block read at point `t` is entry (32 t + p, h', w') of the array read. -/
theorem block_read (c : Dev nD) (t : Fin cfg0.N) (p : Fin 32) (h' w' : Fin 128) (P : Fin 4096) (hP : P.val = t.val * 32 + p.val) :
    iblk m c 0 t (ix3 p h' w') = V m c main_v0 (ix3 P h' w') := by
  obtain ⟨e0, e1, e2, -, -, -⟩ := block_numbers t
  show V m c main_v0 (((cfg0.win 0).blk t).view.emb (ix3 p h' w')) = V m c main_v0 (ix3 P h' w')
  refine congrArg (V m c main_v0) ?_
  funext a; apply Fin.ext
  match a with
  | ⟨0, _⟩ => show win0_0.index t (0 : Fin 3) * 32 + 1 * p.val = P.val; omega
  | ⟨1, _⟩ => show win0_0.index t (1 : Fin 3) * 128 + 1 * h'.val = h'.val; omega
  | ⟨2, _⟩ => show win0_0.index t (2 : Fin 3) * 128 + 1 * w'.val = w'.val; omega

/-- WHAT POINT `t` WRITES BACK is block `t` of `imagesMax` of the array read. -/
theorem flushed_eq (c : Dev nD) (t : Fin cfg0.N) :
    (dats m 0 c).flushed 1 t = ((cfg0.win 1).blk t).view.read (Elt Ideal) (imagesMax (V m c main_v0)) := by
  show (cfg0.win 1).cut (grid0.coords t) ((dats m 0 c).after 1 t) = _
  rw [after0_1]
  unfold out0_1
  rw [View.canon_unit_zero offsets_zero]
  simp only [View.ld_unit_zero (S := S32x128x128) offsets_zero]
  obtain ⟨-, -, -, e3, e4, e5⟩ := block_numbers t
  funext j
  obtain ⟨p, q, r, rfl⟩ : ∃ (p : Fin 32) (q r : Fin 128), j = ix3 p q r := ⟨j 0, j 1, j 2, eq_ix3 j⟩
  refine (payload_apply (iblk m c 0 t) p q r).trans ?_
  show cornerMax (n := 32) (iblk m c 0 t) p q r
    = cornerMax (n := 4096) (V m c main_v0) ((((cfg0.win 1).blk t).view.emb (ix3 p q r)) 0)
        ((((cfg0.win 1).blk t).view.emb (ix3 p q r)) 1) ((((cfg0.win 1).blk t).view.emb (ix3 p q r)) 2)
  refine cornerMax_congr _ _ p _ q _ r _ ?_ ?_ (fun h' w' => block_read m c t p h' w' _ ?_)
  · show q.val = win0_1.index t (1 : Fin 3) * 128 + 1 * q.val; omega
  · show r.val = win0_1.index t (2 : Fin 3) * 128 + 1 * r.val; omega
  · show win0_1.index t (0 : Fin 3) * 32 + 1 * p.val = t.val * 32 + p.val; omega

/-- An image index lies in point `t`'s block iff each coordinate is in the block's range. -/
theorem mem_block (t : Fin cfg0.N) (i : S4096x128x128.Idx) :
    i ∈ ((cfg0.win 1).blk t).view.set ↔ ∀ a : Fin 3, win0_1.index t a * S32x128x128.size a ≤ (i a).val
      ∧ (i a).val < win0_1.index t a * S32x128x128.size a + S32x128x128.size a := by
  show i ∈ ((View.whole main_v1).slice (win0_1.rect t)).set ↔ _
  rw [View.set_slice_whole, Rect.mem_set_unit]
  exact Iff.rfl

/-- Every index of the written array is in the block of the point that holds its image: image `n` is in block `n / 32`. -/
theorem covered (i : S4096x128x128.Idx) :
    ∃ t : Fin cfg0.N, (cfg0.win 1).flush t = true ∧ i ∈ ((cfg0.win 1).blk t).view.set := by
  have h0 : (i 0).val < 4096 := (i 0).isLt
  have h1 : (i 1).val < 128 := (i 1).isLt
  have h2 : (i 2).val < 128 := (i 2).isLt
  have hN : cfg0.N = 128 := N_0
  let t : Fin cfg0.N := ⟨(i 0).val / 32, by rw [hN]; omega⟩
  obtain ⟨-, -, -, e3, e4, e5⟩ := block_numbers t
  have et : t.val = (i 0).val / 32 := rfl
  refine ⟨t, flush0_1 t, ?_⟩
  rw [mem_block]
  intro a
  match a with
  | ⟨0, _⟩ => show win0_1.index t (0 : Fin 3) * 32 ≤ (i 0).val ∧ (i 0).val < win0_1.index t (0 : Fin 3) * 32 + 32; omega
  | ⟨1, _⟩ => show win0_1.index t (1 : Fin 3) * 128 ≤ (i 1).val ∧ (i 1).val < win0_1.index t (1 : Fin 3) * 128 + 128; omega
  | ⟨2, _⟩ => show win0_1.index t (2 : Fin 3) * 128 ≤ (i 2).val ∧ (i 2).val < win0_1.index t (2 : Fin 3) * 128 + 128; omega

/-- THE WRITTEN ARRAY after the run is `imagesMax` of the array read. -/
theorem written (c : Dev nD) : (dats m 0 c).arrAt 1 cfg0.N = imagesMax (V m c main_v0) :=
  (dats m 0 c).arrAt_eq_of_cover 1 (imagesMax (V m c main_v0)) (fun t _ => flushed_eq m c t) (covered)

/-- The array the region reads is the argument viewed as 4096 images. -/
theorem read_array (c : Dev nD) :
    (V m c main_v0 : S4096x128x128.Idx → Elt Ideal .f32)
      = shapeCast S4096x128x128 (m ((c : Thread nD τ).loc main_arg0)) shapeCasts_S16x256x128x128_S4096x128x128 := by
  show StableHlo.after hostOps0 (fun b => m (c, b)) (Proc.devRef .tc main_v0) = _
  after_results
  rfl

/-- The program's result is the written array viewed back as [16, 256, 128, 128]. -/
theorem result_array (c : Dev nD) :
    Pipeline.afterTail₀ cfgs (dats m) 0 (V0 m) [hostOps1] c main_v2
      = shapeCast S16x256x128x128 (imagesMax (V m c main_v0)) shapeCasts_S4096x128x128_S16x256x128x128 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = imagesMax (V m c main_v0) :=
    (Pipeline.withArrays_arr spec0 launch0.win.arr_inj c _ _ 1).trans (written m c)
  rw [e]
  rfl

/-- The program's result as a function of its argument: view as 4096 images, `imagesMax`, view back. -/
def result (x : S16x256x128x128.Idx → Elt Ideal .f32) : S16x256x128x128.Idx → Elt Ideal .f32 :=
  shapeCast S16x256x128x128
    (imagesMax (shapeCast S4096x128x128 x shapeCasts_S16x256x128x128_S4096x128x128))
    shapeCasts_S4096x128x128_S16x256x128x128

theorem result_eq (c : Dev nD) :
    Pipeline.afterTail₀ cfgs (dats m) 0 (V0 m) [hostOps1] c main_v2 = result (m ((c.tc : Thread nD τ).loc main_arg0)) := by
  rw [result_array, read_array]
  rfl

/-- THE RUN: every weakly fair execution of the idealized kernel program terminates with its result at `result` of
    the argument and the argument unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.KValue

end
-- ==== Proof.RefRun.lean ====
/-
  The reference program's run, read back.

  The reference is a straight line of seven host operations: the constant `-∞` and its (rank-zero) broadcast, a
  windowed maximum of width 128 down the rows (the window reaching 127 rows back, padded with `-∞`); the same constant
  and broadcast again, the same windowed maximum along the columns; and the sum of the result with itself.  Every
  weakly fair execution terminates with the result buffer at the composition `out` of these operations applied to the
  argument, and the argument unchanged.  The two windowed maxima are named (`scanRows`, `scanCols`) and kept folded
  while the run is read back: nothing here looks inside them.
-/
import proofs.«102322_j66623532695950_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem
  Idealize.ShloMosaic.StableHlo

variable {F : FTy → Type} [FloatOps F]

/-- The rank-zero initial value of both windowed maxima: the broadcast of the constant `-∞`. -/
def negInf : (⟨S_, .f32⟩ : BufTy).Contents (Elt F) := broadcastInDim S_ ![] bcast_S_S_ (constant S_ .f32 0xFF800000#32)

/-- The windowed maximum down the rows (axis 2): width 128, reaching 127 rows back. -/
def scanRows (x : (⟨S16x256x128x128, .f32⟩ : BufTy).Contents (Elt F)) : (⟨S16x256x128x128, .f32⟩ : BufTy).Contents (Elt F) :=
  Host.reduceWindow FloatOps.maximumf ![1, 1, 128, 1] ![1, 1, 1, 1] ![0, 0, 127, 0] ![0, 0, 0, 0] x (negInf (F := F))
    reduceWindows_S16x256x128x128_S16x256x128x128_w1s1p0_0_w1s1p0_0_w128s1p127_0_w1s1p0_0 h_S_

/-- The windowed maximum along the columns (axis 3): width 128, reaching 127 columns back. -/
def scanCols (x : (⟨S16x256x128x128, .f32⟩ : BufTy).Contents (Elt F)) : (⟨S16x256x128x128, .f32⟩ : BufTy).Contents (Elt F) :=
  Host.reduceWindow FloatOps.maximumf ![1, 1, 1, 128] ![1, 1, 1, 1] ![0, 0, 0, 127] ![0, 0, 0, 0] x (negInf (F := F))
    reduceWindows_S16x256x128x128_S16x256x128x128_w1s1p0_0_w1s1p0_0_w1s1p0_0_w128s1p127_0 h_S_

/-- The reference's result as a function of its argument. -/
def out (x : (⟨S16x256x128x128, .f32⟩ : BufTy).Contents (Elt F)) : (⟨S16x256x128x128, .f32⟩ : BufTy).Contents (Elt F) :=
  addf (scanCols (scanRows x)) (scanCols (scanRows x))

/-- @main's seven operations, in order, the two called functions' operations standing at their calls. -/
abbrev ops : List (HloOp τ sig (Elt F)) :=
  [ TRef.nullary (TRef.of (T := ⟨S_, .f32⟩) main_call0_cst) (constant S_ .f32 0xFF800000#32),
    TRef.unary (TRef.of (T := ⟨S_, .f32⟩) main_call0_cst) (TRef.of (T := ⟨S_, .f32⟩) main_call0_v0) (broadcastInDim S_ ![] bcast_S_S_),
    TRef.binary (TRef.of (T := ⟨S16x256x128x128, .f32⟩) main_arg0) (TRef.of (T := ⟨S_, .f32⟩) main_call0_v0)
      (TRef.of (T := ⟨S16x256x128x128, .f32⟩) main_v0)
      (fun x v => Host.reduceWindow FloatOps.maximumf ![1, 1, 128, 1] ![1, 1, 1, 1] ![0, 0, 127, 0] ![0, 0, 0, 0] x v
        reduceWindows_S16x256x128x128_S16x256x128x128_w1s1p0_0_w1s1p0_0_w128s1p127_0_w1s1p0_0 h_S_),
    TRef.nullary (TRef.of (T := ⟨S_, .f32⟩) main_call1_cst) (constant S_ .f32 0xFF800000#32),
    TRef.unary (TRef.of (T := ⟨S_, .f32⟩) main_call1_cst) (TRef.of (T := ⟨S_, .f32⟩) main_call1_v0) (broadcastInDim S_ ![] bcast_S_S_),
    TRef.binary (TRef.of (T := ⟨S16x256x128x128, .f32⟩) main_v0) (TRef.of (T := ⟨S_, .f32⟩) main_call1_v0)
      (TRef.of (T := ⟨S16x256x128x128, .f32⟩) main_v1)
      (fun x v => Host.reduceWindow FloatOps.maximumf ![1, 1, 1, 128] ![1, 1, 1, 1] ![0, 0, 0, 127] ![0, 0, 0, 0] x v
        reduceWindows_S16x256x128x128_S16x256x128x128_w1s1p0_0_w1s1p0_0_w1s1p0_0_w128s1p127_0 h_S_),
    binary main_v1 main_v1 main_v2 (addf : (⟨S16x256x128x128, .f32⟩ : BufTy).Contents (Elt F) → (⟨S16x256x128x128, .f32⟩ : BufTy).Contents (Elt F) → (⟨S16x256x128x128, .f32⟩ : BufTy).Contents (Elt F)) ]

/-- @main is that straight line. -/
theorem main_eq (c : Dev nD) : main (F := F) c = seq ops := rfl

attribute [local irreducible] Host.reduceWindow in
/-- The fold of the seven operations, read at the result buffer, is `out` of the argument buffer's contents. -/
theorem out_eq (V : Valuation τ sig (Elt F)) :
    after ops V (main_v2 : DevRef τ sig) = out (V (main_arg0 : DevRef τ sig)) := by
  simp only [after_cons, after_nil]
  rfl

attribute [local irreducible] Host.reduceWindow in
/-- No operation writes the argument buffer. -/
theorem arg0_eq (V : Valuation τ sig (Elt F)) :
    after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub ..⟩

/-- On every device, from any memory with zero counters: every weakly fair execution of @main terminates with the
    result at `out` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = out (m ((c.tc : Thread nD τ).loc main_arg0))
      ∧ r.2.mem ((c.tc : Thread nD τ).loc main_arg0) = m ((c.tc : Thread nD τ).loc main_arg0) :=
  (θ_run defs _ _).mono (fun _ h c => ⟨(h c main_v2).trans (out_eq _), (h c main_arg0).trans (arg0_eq _)⟩)
    (run_seq scopedRefs_eq scopedSems_eq defs main (fun _ => ops) main_eq (fun _ => ops_sub) m ρ)

end Cert.ReferenceIdeal.HostRun

end
-- ==== Proof.RefValue.lean ====
/-
  The reference's result, entry by entry.

  A windowed maximum of width 128 along one axis, the window at position `i` reaching back to `i - 127` and the padding
  holding `-∞`, is the running maximum along that axis: the fold over the 128 window positions is the padded-window law
  of `PrefixMax`.  Applied down the rows and then along the columns, and the result added to itself, the reference's
  entry (b, c, h, w) is twice the largest entry of image (b, c) in rows 0 … h and columns 0 … w: `cornerMax4`.
-/
import proofs.«102322_j66623532695950_2_alg».proof.Proof.RefRun
import proofs.«102322_j66623532695950_2_alg».proof.Proof.PrefixMax
import Idealize.ShloMosaic.Lib.ValueIdx

noncomputable section

namespace Cert.ReferenceIdeal.RefValue

open Cert.ReferenceIdeal Cert.ReferenceIdeal.Gen Cert.ReferenceIdeal.HostRun Cert.PrefixMax
open Idealize.ShloMosaic Idealize.ShloMosaic.ValueIdx

/-- Twice the largest entry of image (b, c) of `x` in rows 0 … h and columns 0 … w. -/
def cornerMax4 (x : S16x256x128x128.Idx → EReal) (b : Fin 16) (c : Fin 256) (h w : Fin 128) : EReal :=
  preMax (seqOf fun w' => preMax (seqOf fun h' => x (ix4 b c h' w')) h.val) w.val
    + preMax (seqOf fun w' => preMax (seqOf fun h' => x (ix4 b c h' w')) h.val) w.val

/-- The initial value of both windowed maxima is the least extended real. -/
theorem negInf_first : negInf (F := Ideal) (Shape.Idx.first h_S_) = (⊥ : EReal) := by
  show Ideal.ofBits .f32 0xFF800000#32 = ⊥
  simp [Ideal.ofBits, Ideal.ieee]

/-- A fold over the positions of a shape with `N` elements, renumbered when `N` is known. -/
theorem foldl_finRange_cast {N M : ℕ} (hN : N = M) (f : EReal → Fin N → EReal) (v : EReal) :
    (List.finRange N).foldl f v = (List.finRange M).foldl (fun r n => f r (n.cast hN.symm)) v := by
  subst hN; rfl

/-- A value defined by cases on a decidable condition with a proof-dependent branch, restated over an equivalent
    condition and a branch that does not mention the proof. -/
theorem dite_eq_ite_of_iff {P Q : Prop} {dP : Decidable P} {dQ : Decidable Q} (hPQ : P ↔ Q) {α : Type} (A : P → α) (B v : α)
    (hA : ∀ hp : P, A hp = B) : @dite α P dP A (fun _ => v) = @ite α Q dQ B v := by
  by_cases hq : Q
  · rw [dif_pos (hPQ.2 hq), if_pos hq, hA]
  · rw [dif_neg (mt hPQ.1 hq), if_neg hq]

/-- The shape of the row window: 128 positions on axis 2. -/
abbrev WRows : Shape := ⟨4, ![1, 1, 128, 1]⟩
/-- The shape of the column window: 128 positions on axis 3. -/
abbrev WCols : Shape := ⟨4, ![1, 1, 1, 128]⟩

theorem WRows_numel : WRows.numel = 128 := by decide
theorem WCols_numel : WCols.numel = 128 := by decide

/-- Position `n` of the row window is `n` steps along axis 2. -/
theorem WRows_pos (n : Fin 128) :
    WRows.rowMajor.symm (n.cast WRows_numel.symm) = ix4 (⟨0, by decide⟩ : Fin 1) (⟨0, by decide⟩ : Fin 1) n (⟨0, by decide⟩ : Fin 1) := by
  refine (Equiv.symm_apply_eq _).2 (Fin.ext ?_)
  rw [Shape.rowMajor_val_four]
  show n.val = (((0 * 1 + 0) * 128 + n.val) * 1 + 0)
  omega

/-- Position `n` of the column window is `n` steps along axis 3. -/
theorem WCols_pos (n : Fin 128) :
    WCols.rowMajor.symm (n.cast WCols_numel.symm) = ix4 (⟨0, by decide⟩ : Fin 1) (⟨0, by decide⟩ : Fin 1) (⟨0, by decide⟩ : Fin 1) n := by
  refine (Equiv.symm_apply_eq _).2 (Fin.ext ?_)
  rw [Shape.rowMajor_val_four]
  show n.val = (((0 * 1 + 0) * 1 + 0) * 128 + n.val)
  omega

/-- Coordinate `a` of position `n` of the row window. -/
def rowsPos (n : Fin 128) (a : Fin 4) : ℕ := (WRows.rowMajor.symm (n.cast WRows_numel.symm) a).val
/-- Coordinate `a` of position `n` of the column window. -/
def colsPos (n : Fin 128) (a : Fin 4) : ℕ := (WCols.rowMajor.symm (n.cast WCols_numel.symm) a).val

theorem rowsPos_eq (n : Fin 128) : rowsPos n ⟨0, by decide⟩ = 0 ∧ rowsPos n ⟨1, by decide⟩ = 0
    ∧ rowsPos n ⟨2, by decide⟩ = n.val ∧ rowsPos n ⟨3, by decide⟩ = 0 := by
  unfold rowsPos; rw [WRows_pos]; exact ⟨rfl, rfl, rfl, rfl⟩

theorem colsPos_eq (n : Fin 128) : colsPos n ⟨0, by decide⟩ = 0 ∧ colsPos n ⟨1, by decide⟩ = 0
    ∧ colsPos n ⟨2, by decide⟩ = 0 ∧ colsPos n ⟨3, by decide⟩ = n.val := by
  unfold colsPos; rw [WCols_pos]; exact ⟨rfl, rfl, rfl, rfl⟩

/-- The windowed maximum down the rows is the running maximum down the rows. -/
theorem scanRows_apply (x : S16x256x128x128.Idx → EReal) (b : Fin 16) (c : Fin 256) (h w : Fin 128) :
    scanRows (F := Ideal) x (ix4 b c h w) = preMax (seqOf fun h' => x (ix4 b c h' w)) h.val := by
  rw [← paddedWindow_eq_preMax _ h.isLt]
  unfold scanRows Host.reduceWindow
  dsimp only
  rw [negInf_first, foldl_finRange_cast WRows_numel]
  refine congrArg (fun f => List.foldl f ⊥ (List.finRange 128)) (funext fun r => funext fun n => ?_)
  refine congrArg (max r) ?_
  have hb := b.isLt
  have hc := c.isLt
  have hh := h.isLt
  have hw := w.isLt
  have hn := n.isLt
  obtain ⟨k0, k1, k2, k3⟩ := rowsPos_eq n
  refine dite_eq_ite_of_iff ?_ _ _ _ ?_
  · constructor
    · intro hp
      have h2raw := (hp (2 : Fin 4)).1
      have h2 : 127 ≤ h.val * 1 + rowsPos n ⟨2, by decide⟩ := h2raw
      omega
    · intro hq a
      match a with
      | ⟨0, _⟩ => show 0 ≤ b.val * 1 + rowsPos n ⟨0, by decide⟩ ∧ b.val * 1 + rowsPos n ⟨0, by decide⟩ - 0 < 16; omega
      | ⟨1, _⟩ => show 0 ≤ c.val * 1 + rowsPos n ⟨1, by decide⟩ ∧ c.val * 1 + rowsPos n ⟨1, by decide⟩ - 0 < 256; omega
      | ⟨2, _⟩ => show 127 ≤ h.val * 1 + rowsPos n ⟨2, by decide⟩ ∧ h.val * 1 + rowsPos n ⟨2, by decide⟩ - 127 < 128; omega
      | ⟨3, _⟩ => show 0 ≤ w.val * 1 + rowsPos n ⟨3, by decide⟩ ∧ w.val * 1 + rowsPos n ⟨3, by decide⟩ - 0 < 128; omega
  · intro hp
    have h2raw := (hp (2 : Fin 4)).1
    have h2 : 127 ≤ h.val * 1 + rowsPos n ⟨2, by decide⟩ := h2raw
    rw [seqOf_of_lt _ (by omega : h.val + n.val - 127 < 128)]
    refine congrArg x ?_
    funext a; apply Fin.ext
    match a with
    | ⟨0, _⟩ => show b.val * 1 + rowsPos n ⟨0, by decide⟩ - 0 = b.val; omega
    | ⟨1, _⟩ => show c.val * 1 + rowsPos n ⟨1, by decide⟩ - 0 = c.val; omega
    | ⟨2, _⟩ => show h.val * 1 + rowsPos n ⟨2, by decide⟩ - 127 = h.val + n.val - 127; omega
    | ⟨3, _⟩ => show w.val * 1 + rowsPos n ⟨3, by decide⟩ - 0 = w.val; omega

/-- The windowed maximum along the columns is the running maximum along the columns. -/
theorem scanCols_apply (x : S16x256x128x128.Idx → EReal) (b : Fin 16) (c : Fin 256) (h w : Fin 128) :
    scanCols (F := Ideal) x (ix4 b c h w) = preMax (seqOf fun w' => x (ix4 b c h w')) w.val := by
  rw [← paddedWindow_eq_preMax _ w.isLt]
  unfold scanCols Host.reduceWindow
  dsimp only
  rw [negInf_first, foldl_finRange_cast WCols_numel]
  refine congrArg (fun f => List.foldl f ⊥ (List.finRange 128)) (funext fun r => funext fun n => ?_)
  refine congrArg (max r) ?_
  have hb := b.isLt
  have hc := c.isLt
  have hh := h.isLt
  have hw := w.isLt
  have hn := n.isLt
  obtain ⟨k0, k1, k2, k3⟩ := colsPos_eq n
  refine dite_eq_ite_of_iff ?_ _ _ _ ?_
  · constructor
    · intro hp
      have h3raw := (hp (3 : Fin 4)).1
      have h3 : 127 ≤ w.val * 1 + colsPos n ⟨3, by decide⟩ := h3raw
      omega
    · intro hq a
      match a with
      | ⟨0, _⟩ => show 0 ≤ b.val * 1 + colsPos n ⟨0, by decide⟩ ∧ b.val * 1 + colsPos n ⟨0, by decide⟩ - 0 < 16; omega
      | ⟨1, _⟩ => show 0 ≤ c.val * 1 + colsPos n ⟨1, by decide⟩ ∧ c.val * 1 + colsPos n ⟨1, by decide⟩ - 0 < 256; omega
      | ⟨2, _⟩ => show 0 ≤ h.val * 1 + colsPos n ⟨2, by decide⟩ ∧ h.val * 1 + colsPos n ⟨2, by decide⟩ - 0 < 128; omega
      | ⟨3, _⟩ => show 127 ≤ w.val * 1 + colsPos n ⟨3, by decide⟩ ∧ w.val * 1 + colsPos n ⟨3, by decide⟩ - 127 < 128; omega
  · intro hp
    have h3raw := (hp (3 : Fin 4)).1
    have h3 : 127 ≤ w.val * 1 + colsPos n ⟨3, by decide⟩ := h3raw
    rw [seqOf_of_lt _ (by omega : w.val + n.val - 127 < 128)]
    refine congrArg x ?_
    funext a; apply Fin.ext
    match a with
    | ⟨0, _⟩ => show b.val * 1 + colsPos n ⟨0, by decide⟩ - 0 = b.val; omega
    | ⟨1, _⟩ => show c.val * 1 + colsPos n ⟨1, by decide⟩ - 0 = c.val; omega
    | ⟨2, _⟩ => show h.val * 1 + colsPos n ⟨2, by decide⟩ - 0 = h.val; omega
    | ⟨3, _⟩ => show w.val * 1 + colsPos n ⟨3, by decide⟩ - 127 = w.val + n.val - 127; omega

/-- THE REFERENCE AT AN ENTRY. -/
theorem out_apply (x : S16x256x128x128.Idx → EReal) (b : Fin 16) (c : Fin 256) (h w : Fin 128) :
    out (F := Ideal) x (ix4 b c h w) = cornerMax4 x b c h w := by
  show scanCols (F := Ideal) (scanRows (F := Ideal) x) (ix4 b c h w) + scanCols (F := Ideal) (scanRows (F := Ideal) x) (ix4 b c h w) = _
  rw [scanCols_apply]
  unfold cornerMax4
  have e : (fun w' : Fin 128 => scanRows (F := Ideal) x (ix4 b c h w')) = fun w' => preMax (seqOf fun h' => x (ix4 b c h' w')) h.val :=
    funext fun w' => scanRows_apply x b c h w'
  rw [e]

end Cert.ReferenceIdeal.RefValue

end
-- ==== Proof.Bridge.lean ====
/-
  The two programs compute one function.

  The kernel program's result at entry (b, c, h, w) is entry (h, w) of image 256 b + c of the 4096-image view — the
  row-major number of (b, c, h, w) in [16, 256, 128, 128] and of (256 b + c, h, w) in [4096, 128, 128] is the same —
  and that image of the view is image (b, c) of the argument.  So the kernel's entry is twice the largest entry of
  image (b, c) in rows 0 … h and columns 0 … w, which is what the reference's entry is.
-/
import proofs.«102322_j66623532695950_2_alg».proof.Proof.KernelValue
import proofs.«102322_j66623532695950_2_alg».proof.Proof.RefValue

noncomputable section

namespace Cert.Bridge

open Idealize.ShloMosaic Idealize.ShloMosaic.ValueIdx Cert.PrefixMax
open Cert.KernelIdeal Cert.KernelIdeal.Gen Cert.KernelIdeal.Body Cert.KernelIdeal.KValue

/-- THE KERNEL PROGRAM AT AN ENTRY. -/
theorem result_apply (x : S16x256x128x128.Idx → EReal) (b : Fin 16) (c : Fin 256) (h w : Fin 128) :
    result x (ix4 b c h w) = Cert.ReferenceIdeal.RefValue.cornerMax4 x b c h w := by
  have hbc : b.val * 256 + c.val < 4096 := by have := b.isLt; have := c.isLt; omega
  unfold result
  rw [shapeCast_apply _ _ (ix4 b c h w) (ix3 (⟨b.val * 256 + c.val, hbc⟩ : Fin 4096) h w)
    (by rw [Shape.rowMajor_val_three, Shape.rowMajor_val_four]; rfl)]
  show cornerMax (n := 4096) _ ⟨b.val * 256 + c.val, hbc⟩ h w = _
  unfold cornerMax Cert.ReferenceIdeal.RefValue.cornerMax4
  have e : ∀ h' w' : Fin 128,
      shapeCast S4096x128x128 x shapeCasts_S16x256x128x128_S4096x128x128 (ix3 (⟨b.val * 256 + c.val, hbc⟩ : Fin 4096) h' w')
        = x (ix4 b c h' w') := fun h' w' =>
    shapeCast_apply _ _ _ (ix4 b c h' w') (by rw [Shape.rowMajor_val_three, Shape.rowMajor_val_four]; rfl)
  simp only [e]

/-- The kernel program's result and the reference's result are one function of the argument. -/
theorem result_eq_out (x : S16x256x128x128.Idx → EReal) :
    result x = Cert.ReferenceIdeal.HostRun.out (F := Ideal) x := by
  funext i
  obtain ⟨b, c, h, w, rfl⟩ : ∃ (b : Fin 16) (c : Fin 256) (h w : Fin 128), i = ix4 b c h w :=
    ⟨i 0, i 1, i 2, i 3, eq_ix4 i⟩
  rw [result_apply, Cert.ReferenceIdeal.RefValue.out_apply]

end Cert.Bridge

end
-- ==== Proof.lean ====
/-
  Corner pooling: a log-step running maximum against a windowed maximum.

  The kernel takes x : f32[16, 256, 128, 128], regards it as 4096 images of 128 × 128, and on each image computes the
  running maximum down the rows and then along the columns by the log-step scan — seven steps with shifts 1, 2, 4, …,
  64, each replacing an entry at or past the shift by the larger of itself and the entry `shift` places before it —
  and returns the result added to itself.  The reference computes the same two running maxima as windowed maxima of
  width 128 padded with −∞, and adds the result to itself.

  Over the extended reals both are, at entry (b, c, h, w),

      2 · max { x[b, c, h', w'] : h' ≤ h, w' ≤ w }

  (the maximum along rows taken first, then along columns, on both sides).  The law that joins them is the doubling of
  a running window: the largest of the last `w` terms at position `i` together with the largest of the last `w` terms
  at position `i − w` is the largest of the last `2w` terms at `i`; seven doublings from width 1 reach width 128, which
  covers everything up to any position below 128 — and a window of 128 positions padded with −∞ covers the same terms.
  Only the order of the extended reals is used, so the inputs' finiteness plays no part in the value; the sum `z + z` is
  the same function of the same `z` on both sides.

  The modules: `PrefixMax` (the order laws), `BodyScan` (the kernel body on one block, entry by entry), `KernelValue`
  (blocks to the whole array, the two changes of view, the kernel program's run), `RefRun` (the reference's run),
  `RefValue` (the reference entry by entry), `Bridge` (the two results are one function).  The three frame claims are
  the runs with the result forgotten; the idealization rewrote nothing, so `preserves` is trivial.
-/
import proofs.«102322_j66623532695950_2_alg».proof.Defs
import proofs.«102322_j66623532695950_2_alg».proof.Proof.Gen.Kernel
import proofs.«102322_j66623532695950_2_alg».proof.Proof.Gen.Kernel.Skeleton
import proofs.«102322_j66623532695950_2_alg».proof.Proof.Gen.Kernel.Launch
import proofs.«102322_j66623532695950_2_alg».proof.Proof.Gen.Kernel.Points
import proofs.«102322_j66623532695950_2_alg».proof.Proof.Gen.Kernel.Frame
import proofs.«102322_j66623532695950_2_alg».proof.Proof.Gen.KernelIdeal
import proofs.«102322_j66623532695950_2_alg».proof.Proof.Gen.KernelIdeal.Skeleton
import proofs.«102322_j66623532695950_2_alg».proof.Proof.Gen.KernelIdeal.Launch
import proofs.«102322_j66623532695950_2_alg».proof.Proof.Gen.KernelIdeal.Points
import proofs.«102322_j66623532695950_2_alg».proof.Proof.Gen.KernelIdeal.Frame
import proofs.«102322_j66623532695950_2_alg».proof.Proof.Gen.ReferenceIdeal
import proofs.«102322_j66623532695950_2_alg».proof.Proof.Gen.Pre_finite_inputs
import proofs.«102322_j66623532695950_2_alg».proof.Proof.KernelValue
import proofs.«102322_j66623532695950_2_alg».proof.Proof.RefRun
import proofs.«102322_j66623532695950_2_alg».proof.Proof.Bridge
import Idealize.ShloMosaic.Adequacy
import Idealize.ShloMosaic.Init

noncomputable section

namespace Cert.Proof

open Idealize.ShloMosaic Idealize.SL.Sem

/-- The word-level kernel program runs and leaves its argument unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories that agree on the argument both idealized programs run, the kernel program to `result` of the
    argument and the reference to `out` of it; these are one function (`Bridge.result_eq_out`). -/
theorem algebraic : Cert.algebraic_KernelIdeal_ReferenceIdeal := by
  intro m ρ m' ρ' _ hagree
  refine ⟨fun c => Cert.KernelIdeal.KValue.result (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.HostRun.run (F := Ideal) m' ρ')
  rw [hagree c]
  exact (Cert.Bridge.result_eq_out _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
